-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x4096 .f32) (main_arg1 : FVec F S4096x4096 .f32) (main_arg2 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩
abbrev S256x512 : Shape := ⟨2, ![256, 512]⟩
abbrev S512x4096 : Shape := ⟨2, ![512, 4096]⟩
abbrev S256x4096 : Shape := ⟨2, ![256, 4096]⟩

abbrev nBuf : Space → Nat
  | .hbm => 5
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S2048x4096, .f32⟩
  | .local _ .vmem, ⟨0, _⟩ => ⟨S256x512, .f32⟩
  | .local _ .vmem, ⟨1, _⟩ => ⟨S256x512, .f32⟩
  | .local _ .vmem, ⟨2, _⟩ => ⟨S512x4096, .f32⟩
  | .local _ .vmem, ⟨3, _⟩ => ⟨S512x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S256x4096_S256x4096 : S256x4096.ShapeCasts S256x4096
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x4096.size a
  hwx0_0 : ∀ i : grid0.Coords, EltTy.bits .f32 = 32 ∨ (Rect.block (s := S2048x4096) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S2048x4096.size a
  hwx0_3 : ∀ i : grid0.Coords, EltTy.bits .f32 = 32 ∨ (Rect.block (s := S2048x4096) S256x4096.size (cc0_transform_3 i) (hinb0_3 i)).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S2048x4096, .f32⟩
  | .hbm, ⟨4, _⟩ => ⟨S1x4096, .f32⟩
  | .hbm, ⟨5, _⟩ => ⟨S2048x4096, .f32⟩
  | .hbm, ⟨6, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.Payloads.lean ====
/-
  The kernel body's two stored values, read at an entry, on the extended reals.

  At the first step of a row block's run the body stores the bias row repeated down the block's 256 rows; at every
  step it then stores what the block held plus the product of the step's [256, 512] piece of `x` with the step's
  [512, 4096] piece of `weight`. Rounding both pieces to bf16 on the way into the product is the identity on the
  extended reals, and the product into a zero accumulator is the plain sum of products over the 512 contracted
  places. So entry (a, j) of the first stored value is the bias at column j, and entry (a, j) of the second is the
  old entry plus Σ_{k < 512} xpiece[a, k] · wpiece[k, j].
-/
import proofs.«135480_j11424613007510_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx

/-- The bias row repeated down the block: entry (a, j) is the row's entry at column j. -/
theorem bias_rows_apply (b : Vec Ideal S1x4096 .f32) (a : Fin 256) (j : Fin 4096) :
    k0_pay1 (F := Ideal) b (ix2 a j) = b (ix2 (0 : Fin 1) j) := by
  unfold k0_pay1
  simp only [shapeCast_self]
  exact broadcastTo_1b_ab_apply _ _ a j

/-- The left piece's index at output entry `i` and contracted place `q`: row `i 0`, … -/
theorem lhs_row (i : S256x4096.Idx) (q : dot_S256x512_S512x4096_S256x4096_1_0_0_1_n_n.contr.Idx) :
    (dot_S256x512_S512x4096_S256x4096_1_0_0_1_n_n.lhsIdx i q 0).val = (i 0).val := by
  unfold DotDims.lhsIdx
  rw [dif_neg (show ¬(0 : Fin S256x512.rank) ∈ dot_S256x512_S512x4096_S256x4096_1_0_0_1_n_n.lhsBatch by decide),
    dif_pos (show (0 : Fin S256x512.rank) ∈ dot_S256x512_S512x4096_S256x4096_1_0_0_1_n_n.lhsNonContracting by decide)]
  rfl
/-- … column the contracted place. -/
theorem lhs_col (i : S256x4096.Idx) (q : dot_S256x512_S512x4096_S256x4096_1_0_0_1_n_n.contr.Idx) :
    (dot_S256x512_S512x4096_S256x4096_1_0_0_1_n_n.lhsIdx i q 1).val = (q ⟨0, by decide⟩).val :=
  dot_S256x512_S512x4096_S256x4096_1_0_0_1_n_n.lhsIdx_val_of_single rfl i q
/-- The right piece's index: row the contracted place, … -/
theorem rhs_row (i : S256x4096.Idx) (q : dot_S256x512_S512x4096_S256x4096_1_0_0_1_n_n.contr.Idx) :
    (dot_S256x512_S512x4096_S256x4096_1_0_0_1_n_n.rhsIdx i q 0).val = (q ⟨0, by decide⟩).val :=
  dot_S256x512_S512x4096_S256x4096_1_0_0_1_n_n.rhsIdx_val_of_single rfl i q
/-- … column `i 1`. -/
theorem rhs_col (i : S256x4096.Idx) (q : dot_S256x512_S512x4096_S256x4096_1_0_0_1_n_n.contr.Idx) :
    (dot_S256x512_S512x4096_S256x4096_1_0_0_1_n_n.rhsIdx i q 1).val = (i 1).val := by
  unfold DotDims.rhsIdx
  rw [dif_neg (show ¬(1 : Fin S512x4096.rank) ∈ dot_S256x512_S512x4096_S256x4096_1_0_0_1_n_n.rhsBatch by decide),
    dif_pos (show (1 : Fin S512x4096.rank) ∈ dot_S256x512_S512x4096_S256x4096_1_0_0_1_n_n.rhsNonContracting by decide)]
  rfl

/-- One accumulation step: entry (a, j) is the old entry plus the 512-term sum of products of the two pieces. -/
theorem accumulate_apply (xp : Vec Ideal S256x512 .f32) (wp : Vec Ideal S512x4096 .f32) (acc : Vec Ideal S256x4096 .f32)
    (a : Fin 256) (j : Fin 4096) :
    k0_pay2 (F := Ideal) xp wp acc (ix2 a j) = acc (ix2 a j) + ∑ k : Fin 512, xp (ix2 a k) * wp (ix2 k j) := by
  unfold k0_pay2
  simp only [shapeCast_self]
  refine congrArg (acc (ix2 a j) + ·) ?_
  refine (Ideal.matmul_constant_zero_apply dot_S256x512_S512x4096_S256x4096_1_0_0_1_n_n none _ _ (ix2 a j)).trans ?_
  rw [← Equiv.sum_comp (contrEquiv1 dot_S256x512_S512x4096_S256x4096_1_0_0_1_n_n 512 rfl rfl).symm]
  refine Finset.sum_congr rfl fun k _ => ?_
  have hk := contrEquiv1_symm_val dot_S256x512_S512x4096_S256x4096_1_0_0_1_n_n 512 rfl rfl k
  have el : dot_S256x512_S512x4096_S256x4096_1_0_0_1_n_n.lhsIdx (ix2 a j)
      ((contrEquiv1 dot_S256x512_S512x4096_S256x4096_1_0_0_1_n_n 512 rfl rfl).symm k) = ix2 a k :=
    funext fun ax => Fin.ext (by
      match ax with
      | ⟨0, _⟩ => exact lhs_row _ _
      | ⟨1, _⟩ => exact (lhs_col _ _).trans hk)
  have er : dot_S256x512_S512x4096_S256x4096_1_0_0_1_n_n.rhsIdx (ix2 a j)
      ((contrEquiv1 dot_S256x512_S512x4096_S256x4096_1_0_0_1_n_n 512 rfl rfl).symm k) = ix2 k j :=
    funext fun ax => Fin.ext (by
      match ax with
      | ⟨0, _⟩ => exact (rhs_row _ _).trans hk
      | ⟨1, _⟩ => exact rhs_col _ _)
  rw [el, er]
  rfl

end Cert.KernelIdeal.Payloads

end
-- ==== Proof.Blocks.lean ====
/-
  Which entries of the argument arrays a grid point's input blocks hold.

  The grid is 8 × 8; point `t` (row-major) is row block `t / 8` and contraction step `t % 8`. At that point the
  `x` block is rows `256·(t/8) … 256·(t/8) + 255`, columns `512·(t%8) … 512·(t%8) + 511` of `x`; the `weight` block
  is rows `512·(t%8) … 512·(t%8) + 511` of `weight`, all 4096 columns; the bias block is the whole bias, seen as
  one row of 4096 (the program reshapes the bias vector to [1, 4096] before the grid runs, and a reshape keeps
  row-major order, so entry (0, j) of the row is entry j of the vector).
-/
import proofs.«135480_j11424613007510_2_alg».proof.Proof.Gen.KernelIdeal.Frame.Runs
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The three input windows' block indices at every grid point, decided over the 64 points. -/
theorem block_indices : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0 :=
  (by decide +kernel : ∀ t : Fin grid0.N, _)

/-- Entry (a, k) of the `x` block at point `t` is `x[256·(t/8) + a, 512·(t%8) + k]`. -/
theorem x_block_apply (c : Dev nD) (t : Fin cfg0.N) (a : Fin 256) (k : Fin 512) (r : Fin 2048) (q : Fin 4096)
    (hr : r.val = t.val / 8 * 256 + a.val) (hq : q.val = t.val % 8 * 512 + k.val) :
    (iblk m c 0 t : Vec F S256x512 .f32) (ix2 a k)
      = (m ((c : Thread nD τ).loc main_arg0) : S2048x4096.Idx → Elt F .f32) (ix2 r q) := by
  obtain ⟨h0, h1, -⟩ := block_indices t
  unfold iblk
  rw [View.read_apply]
  show V m c main_arg0 (((cfg0.win 0).blk t).view.emb (ix2 a k)) = _
  rw [V_main_arg0]
  refine congrArg _ (funext fun ax => Fin.ext ?_)
  match ax with
  | ⟨0, _⟩ => show win0_0.index t (0 : Fin 2) * 256 + 1 * a.val = r.val; rw [h0, hr]; omega
  | ⟨1, _⟩ => show win0_0.index t (1 : Fin 2) * 512 + 1 * k.val = q.val; rw [h1, hq]; omega

/-- Entry (k, j) of the `weight` block at point `t` is `weight[512·(t%8) + k, j]`. -/
theorem w_block_apply (c : Dev nD) (t : Fin cfg0.N) (k : Fin 512) (j : Fin 4096) (q : Fin 4096)
    (hq : q.val = t.val % 8 * 512 + k.val) :
    (iblk m c 1 t : Vec F S512x4096 .f32) (ix2 k j)
      = (m ((c : Thread nD τ).loc main_arg1) : S4096x4096.Idx → Elt F .f32) (ix2 q j) := by
  obtain ⟨-, -, h0, h1, -⟩ := block_indices t
  unfold iblk
  rw [View.read_apply]
  show V m c main_arg1 (((cfg0.win 1).blk t).view.emb (ix2 k j)) = _
  rw [V_main_arg1]
  refine congrArg _ (funext fun ax => Fin.ext ?_)
  match ax with
  | ⟨0, _⟩ => show win0_1.index t (0 : Fin 2) * 512 + 1 * k.val = q.val; rw [h0, hq]; omega
  | ⟨1, _⟩ => show win0_1.index t (1 : Fin 2) * 4096 + 1 * j.val = j.val; rw [h1]; omega

/-- The [1, 4096] array the bias window reads is the bias vector reshaped. -/
theorem bias_row_eq (c : Dev nD) :
    (V m c main_v0 : S1x4096.Idx → Elt F .f32)
      = shapeCast S1x4096 (m ((c : Thread nD τ).loc main_arg2) : S4096.Idx → Elt F .f32) shapeCasts_S4096_S1x4096 := by
  dsimp only [V, hostOps0]
  after_results
  rfl

/-- Entry (0, j) of the bias block, at any point, is `bias[j]`. -/
theorem bias_block_apply (c : Dev nD) (t : Fin cfg0.N) (j : Fin 4096) :
    (iblk m c 2 t : Vec F S1x4096 .f32) (ix2 (0 : Fin 1) j)
      = (m ((c : Thread nD τ).loc main_arg2) : S4096.Idx → Elt F .f32) (ix1 j) := by
  obtain ⟨-, -, -, -, h0, h1⟩ := block_indices t
  unfold iblk
  rw [View.read_apply]
  show (V m c main_v0 : S1x4096.Idx → Elt F .f32) (((cfg0.win 2).blk t).view.emb (ix2 (0 : Fin 1) j)) = _
  rw [bias_row_eq]
  have hemb : ((cfg0.win 2).blk t).view.emb (ix2 (0 : Fin 1) j) = (ix2 (0 : Fin 1) j : S1x4096.Idx) :=
    funext fun ax => Fin.ext (by
      match ax with
      | ⟨0, _⟩ => show win0_2.index t (0 : Fin 2) * 1 + 1 * 0 = 0; rw [h0]
      | ⟨1, _⟩ => show win0_2.index t (1 : Fin 2) * 4096 + 1 * j.val = j.val; rw [h1]; omega)
  rw [hemb]
  exact shapeCast_a_1a_apply _ _ 0 j

end Cert.KernelIdeal.Blocks

end
-- ==== Proof.LibBlockedSum.lean ====
/-
  A finite sum cut into consecutive blocks.

  A sum over the `a * b` indices `0, 1, …, a * b - 1` is the sum, over the `a` blocks `s = 0, …, a - 1`, of the
  block's own sum over its `b` consecutive indices `s * b, s * b + 1, …, s * b + (b - 1)`. Addition is only asked
  to be commutative and associative (any additive commutative monoid: the extended reals qualify, where
  cancellation and distributivity may fail at the infinities but re-bracketing and re-ordering a sum never do).
  This is the law that joins a contraction computed one block of the contracted axis at a time with the same
  contraction computed in one go.
-/
import Mathlib.Algebra.BigOperators.Fin
import Mathlib.Logic.Equiv.Fin.Basic

open scoped BigOperators

namespace BlockedSum

/-- The `k`-th index of block `s` is an index of the whole range. -/
theorem block_index_lt {a b : ℕ} (s : Fin a) (k : Fin b) : s.val * b + k.val < a * b := by
  have hs : s.val + 1 ≤ a := s.isLt
  have hk : k.val < b := k.isLt
  calc s.val * b + k.val < s.val * b + b := Nat.add_lt_add_left hk _
    _ = (s.val + 1) * b := (Nat.succ_mul _ _).symm
    _ ≤ a * b := Nat.mul_le_mul_right b hs

/-- The `k`-th index of block `s`, as an index of the whole range. -/
def blockIndex {a b : ℕ} (s : Fin a) (k : Fin b) : Fin (a * b) := ⟨s.val * b + k.val, block_index_lt s k⟩

@[simp] theorem blockIndex_val {a b : ℕ} (s : Fin a) (k : Fin b) : (blockIndex s k).val = s.val * b + k.val := rfl

/-- A sum over `a * b` indices is the sum of its `a` consecutive blocks of `b` terms each. -/
theorem sum_eq_sum_blocks {M : Type*} [AddCommMonoid M] (a b : ℕ) (f : Fin (a * b) → M) :
    ∑ i : Fin (a * b), f i = ∑ s : Fin a, ∑ k : Fin b, f (blockIndex s k) := by
  rw [← Equiv.sum_comp finProdFinEquiv f, Fintype.sum_prod_type]
  refine Finset.sum_congr rfl fun s _ => Finset.sum_congr rfl fun k _ => congrArg f (Fin.ext ?_)
  show k.val + b * s.val = s.val * b + k.val
  rw [Nat.add_comm, Nat.mul_comm]

/-- The same with the blocks counted by a natural number below `a` (a `Finset.range` sum, the form a fold over
    consecutive steps unrolls to): `g` gives block `s`'s term at its `k`-th place, and agrees with `f` there. -/
theorem sum_range_blocks {M : Type*} [AddCommMonoid M] (a b : ℕ) (f : Fin (a * b) → M) (g : ℕ → Fin b → M)
    (hg : ∀ (s : Fin a) (k : Fin b), g s.val k = f (blockIndex s k)) :
    ∑ s ∈ Finset.range a, ∑ k : Fin b, g s k = ∑ i : Fin (a * b), f i := by
  rw [sum_eq_sum_blocks, Finset.sum_range]
  exact Finset.sum_congr rfl fun s _ => Finset.sum_congr rfl fun k _ => hg s k

end BlockedSum
-- ==== Proof.Spec.lean ====
/-
  The function both programs compute, entry by entry, on the extended reals:

      linear x weight bias (r, j) = bias[j] + Σ_{k < 4096} x[r, k] · weight[k, j]

  over x : [2048, 4096], weight : [4096, 4096], bias : [4096].
-/
import Idealize.ShloMosaic.Lib.ValueIdx

open scoped BigOperators

namespace Cert.LinearSpec

open Idealize.ShloMosaic Idealize.ShloMosaic.ValueIdx

/-- The affine map `x · weight + bias`, entry by entry. -/
noncomputable def linear (x : (⟨2, ![2048, 4096]⟩ : Shape).Idx → EReal) (weight : (⟨2, ![4096, 4096]⟩ : Shape).Idx → EReal)
    (bias : (⟨1, ![4096]⟩ : Shape).Idx → EReal) : (⟨2, ![2048, 4096]⟩ : Shape).Idx → EReal :=
  fun i => bias (ix1 (i 1)) + ∑ k : Fin 4096, x (ix2 (i 0) k) * weight (ix2 k (i 1))

end Cert.LinearSpec
-- ==== Proof.KernelValue.lean ====
/-
  What the kernel's result array holds, entry by entry, on the extended reals.

  Row block `p` of the result (rows `256·p … 256·p + 255`) is built by the eight consecutive grid points
  `8·p, …, 8·p + 7`: the first stores the bias row and adds its product, each later one adds its product to what
  the block held. Step `s` of that run multiplies columns `512·s … 512·s + 511` of `x`'s rows with the same rows
  of `weight`. So entry (a, j) of the block ends as

      bias[j] + Σ_{s < 8} Σ_{k < 512} x[256·p + a, 512·s + k] · weight[512·s + k, j],

  and the eight blocks of 512 consecutive contracted places are all 4096 of them: the entry is
  `bias[j] + Σ_{k < 4096} x[r, k] · weight[k, j]` with `r = 256·p + a`. Only re-bracketing of a finite sum is used.
-/
import proofs.«135480_j11424613007510_2_alg».proof.Proof.Gen.KernelIdeal.Value
import proofs.«135480_j11424613007510_2_alg».proof.Proof.Payloads
import proofs.«135480_j11424613007510_2_alg».proof.Proof.Blocks
import proofs.«135480_j11424613007510_2_alg».proof.Proof.LibBlockedSum
import proofs.«135480_j11424613007510_2_alg».proof.Proof.Spec

noncomputable section

namespace Cert.KernelIdeal.Whole

open Cert.KernelIdeal Cert.KernelIdeal.Gen Idealize.ShloMosaic Idealize.ShloMosaic.TcCoe Idealize.SL.Sem
open Idealize.ShloMosaic.ValueIdx

/-- Row `a` of row block `p`, as a row of `x`. -/
def rowOf (p : Fin 8) (a : Fin 256) : Fin 2048 :=
  ⟨p.val * 256 + a.val, by have := p.isLt; have := a.isLt; omega⟩

/-- Place `k` of the contraction block that grid point `n` handles (block `n % 8`), as a contracted place. -/
def placeOf (n : ℕ) (k : Fin 512) : Fin 4096 :=
  ⟨n % 8 * 512 + k.val, by have := Nat.mod_lt n (show 0 < 8 by decide); have := k.isLt; omega⟩

/-- The product grid point `n` adds to entry `y` of row block `p`:
    `Σ_{k < 512} x[256·p + y₀, 512·(n % 8) + k] · weight[512·(n % 8) + k, y₁]`. -/
def stepTerm (x : S2048x4096.Idx → EReal) (weight : S4096x4096.Idx → EReal) (p : Fin 8) (n : ℕ) (y : S256x4096.Idx) : EReal :=
  ∑ k : Fin 512, x (ix2 (rowOf p (y 0)) (placeOf n k)) * weight (ix2 (placeOf n k) (y 1))

/-- The product of two pieces at entry (a, j) is point `n`'s `stepTerm`, when the pieces are `x`'s and `weight`'s
    blocks at that point. -/
theorem product_eq (x : S2048x4096.Idx → EReal) (weight : S4096x4096.Idx → EReal)
    (xp : Vec Ideal S256x512 .f32) (wp : Vec Ideal S512x4096 .f32) (p : Fin 8) (n : ℕ)
    (hx : ∀ (a : Fin 256) (k : Fin 512), xp (ix2 a k) = x (ix2 (rowOf p a) (placeOf n k)))
    (hw : ∀ (k : Fin 512) (j : Fin 4096), wp (ix2 k j) = weight (ix2 (placeOf n k) j)) (a : Fin 256) (j : Fin 4096) :
    ∑ k : Fin 512, xp (ix2 a k) * wp (ix2 k j) = stepTerm x weight p n (ix2 a j) := by
  unfold stepTerm
  exact Finset.sum_congr rfl fun k _ => congrArg₂ (· * ·) (hx a k) (hw k j)

variable (m : (ℓ : Loc nD τ sig) → Buf (Elt Ideal) ℓ)

/-- The three argument arrays on core `c`. -/
abbrev xArr (c : Dev nD) : S2048x4096.Idx → EReal := m ((c : Thread nD τ).loc main_arg0)
abbrev wArr (c : Dev nD) : S4096x4096.Idx → EReal := m ((c : Thread nD τ).loc main_arg1)
abbrev bArr (c : Dev nD) : S4096.Idx → EReal := m ((c : Thread nD τ).loc main_arg2)

/-- The `x` block at a point of row block `p`, entry by entry. -/
theorem x_piece (c : Dev nD) (p : Fin 8) (n : ℕ) (h : n < cfg0.N) (hp : n / 8 = p.val) (a : Fin 256) (k : Fin 512) :
    (iblk m c 0 ⟨n, h⟩ : Vec Ideal S256x512 .f32) (ix2 a k) = xArr m c (ix2 (rowOf p a) (placeOf n k)) :=
  Blocks.x_block_apply m c ⟨n, h⟩ a k (rowOf p a) (placeOf n k)
    (by show p.val * 256 + a.val = n / 8 * 256 + a.val; rw [hp]) rfl

/-- The `weight` block at a point, entry by entry. -/
theorem w_piece (c : Dev nD) (n : ℕ) (h : n < cfg0.N) (k : Fin 512) (j : Fin 4096) :
    (iblk m c 1 ⟨n, h⟩ : Vec Ideal S512x4096 .f32) (ix2 k j) = wArr m c (ix2 (placeOf n k) j) :=
  Blocks.w_block_apply m c ⟨n, h⟩ k j (placeOf n k) rfl

/-- The run of row block `p` (points `b = 8·p` to `b + 7`), unrolled at an entry: the bias plus the eight products. -/
theorem fold_apply (c : Dev nD) (p : Fin 8) (b : ℕ) (hb : b = 8 * p.val) (h : b + 7 < cfg0.N) (y : S256x4096.Idx) :
    Pipeline.accAt (Value.reset3 m c) (Value.step3 m c) b 7 h y
      = bArr m c (ix1 (y 1)) + ∑ s ∈ Finset.range (7 + 1), stepTerm (xArr m c) (wArr m c) p (b + s) y := by
  subst hb
  refine Pipeline.accAt_add_apply (Value.reset3 m c) (Value.step3 m c)
    (fun y => bArr m c (ix1 (y 1))) (stepTerm (xArr m c) (wArr m c) p) (8 * p.val) 7
    ?_ ?_ 7 (Nat.le_refl 7) h y
  · intro h y
    obtain ⟨a, j, rfl⟩ : ∃ (a : Fin 256) (j : Fin 4096), y = ix2 a j := ⟨y 0, y 1, eq_ix2 y⟩
    unfold Value.reset3
    refine (Payloads.accumulate_apply _ _ _ a j).trans ?_
    refine congrArg₂ (· + ·) ?_ ?_
    · exact (Payloads.bias_rows_apply _ a j).trans (Blocks.bias_block_apply m c ⟨8 * p.val, h⟩ j)
    · exact product_eq (xArr m c) (wArr m c) (iblk m c 0 ⟨8 * p.val, h⟩) (iblk m c 1 ⟨8 * p.val, h⟩) p (8 * p.val)
        (x_piece m c p (8 * p.val) h (Nat.mul_div_cancel_left _ (by decide))) (w_piece m c (8 * p.val) h) a j
  · intro n h acc y hlt hle
    obtain ⟨a, j, rfl⟩ : ∃ (a : Fin 256) (j : Fin 4096), y = ix2 a j := ⟨y 0, y 1, eq_ix2 y⟩
    unfold Value.step3
    refine (Payloads.accumulate_apply _ _ acc a j).trans ?_
    exact congrArg (acc (ix2 a j) + ·) (product_eq (xArr m c) (wArr m c) (iblk m c 0 ⟨n, h⟩) (iblk m c 1 ⟨n, h⟩) p n
      (x_piece m c p n h (by omega)) (w_piece m c n h) a j)

/-- The result array is `linear x weight bias`. -/
theorem result_eq (c : Dev nD) :
    (Value.G3 m c : S2048x4096.Idx → EReal) = Cert.LinearSpec.linear (xArr m c) (wArr m c) (bArr m c) := by
  funext i
  have hi0 : (i 0).val < 2048 := (i 0).isLt
  have hi1 : (i 1).val < 4096 := (i 1).isLt
  have hN : cfg0.N = 64 := N_0
  have hr : Value.run3Of i = (i 0).val / 256 := by
    show 1 * ((i 0).val / 256 - 0) + 1 * ((i 1).val / 4096 - 0) = _
    have : (i 1).val / 4096 = 0 := by omega
    omega
  obtain ⟨p, hp⟩ : ∃ p : Fin 8, p.val = (i 0).val / 256 := ⟨⟨(i 0).val / 256, by omega⟩, rfl⟩
  have hrow : rowOf p (Value.loc3Of i 0) = i 0 := Fin.ext (by
    show p.val * 256 + (i 0).val % 256 = (i 0).val
    rw [hp]; omega)
  have hcol : Value.loc3Of i 1 = i 1 := Fin.ext (by
    show (i 1).val % 4096 = (i 1).val
    omega)
  unfold Value.G3
  rw [dif_pos (by rw [hr, hN]; omega)]
  refine (fold_apply m c p (8 * Value.run3Of i) (by rw [hr, hp]) _ (Value.loc3Of i)).trans ?_
  unfold Cert.LinearSpec.linear
  rw [hcol]
  refine congrArg (bArr m c (ix1 (i 1)) + ·) ?_
  refine BlockedSum.sum_range_blocks 8 512
    (fun k => xArr m c (ix2 (i 0) k) * wArr m c (ix2 k (i 1)))
    (fun s k => xArr m c (ix2 (rowOf p (Value.loc3Of i 0)) (placeOf (8 * Value.run3Of i + s) k))
      * wArr m c (ix2 (placeOf (8 * Value.run3Of i + s) k) (Value.loc3Of i 1))) ?_
  intro s k
  have hplace : placeOf (8 * Value.run3Of i + s.val) k = BlockedSum.blockIndex s k := Fin.ext (by
    show (8 * Value.run3Of i + s.val) % 8 * 512 + k.val = s.val * 512 + k.val
    have := s.isLt
    omega)
  show _ * _ = _ * _
  rw [hplace, hrow, hcol]

end Cert.KernelIdeal.Whole

end
-- ==== Proof.ReferenceValue.lean ====
/-
  What the reference's result holds, entry by entry, on the extended reals: the contraction of `x`'s row with
  `weight`'s column over all 4096 places, plus the bias entry of the column (the bias vector laid along a row and
  repeated down the 2048 rows). That is `linear x weight bias`, with the two summands in the other order.
-/
import proofs.«135480_j11424613007510_2_alg».proof.Proof.Gen.ReferenceIdeal.Read
import proofs.«135480_j11424613007510_2_alg».proof.Proof.Spec

noncomputable section

namespace Cert.ReferenceIdeal.Whole

open Cert.ReferenceIdeal Cert.ReferenceIdeal.Gen Idealize.ShloMosaic Idealize.ShloMosaic.ValueIdx

/-- The reference's last stage is `linear x weight bias`. -/
theorem result_eq (x : S2048x4096.Idx → EReal) (weight : S4096x4096.Idx → EReal) (bias : S4096.Idx → EReal) :
    Read.val_main_v3 (F := Ideal) x weight bias = Cert.LinearSpec.linear x weight bias := by
  funext i
  rw [Read.val_main_v3_apply, Read.val_main_v0_apply, Read.val_main_v2_apply, Read.val_main_v1_apply]
  unfold Cert.LinearSpec.linear
  show (∑ k : Fin 4096, x (Read.lidx_main_v0 i k) * weight (Read.ridx_main_v0 i k))
      + bias (Read.idx_main_v1 (Read.idx_main_v2 i)) = _
  rw [add_comm]
  refine congrArg₂ (· + ·) (congrArg bias (funext fun a => ?_)) (Finset.sum_congr rfl fun k _ => congrArg₂ (· * ·)
    (congrArg x (funext fun a => ?_)) (congrArg weight (funext fun a => ?_)))
  · match a with
    | ⟨0, _⟩ => rfl
  · match a with
    | ⟨0, _⟩ => rfl
    | ⟨1, _⟩ => rfl
  · match a with
    | ⟨0, _⟩ => rfl
    | ⟨1, _⟩ => rfl

end Cert.ReferenceIdeal.Whole

end
-- ==== Proof.lean ====
/-
  A linear layer, `x · weight + bias` over x : [2048, 4096], weight : [4096, 4096], bias : [4096], computed by a
  kernel that walks an 8 × 8 grid — eight row blocks of 256 rows, and for each the contraction cut into eight
  blocks of 512 places, the output block starting at the bias row and gaining one partial product per step —
  against the reference's single contraction over all 4096 places followed by adding the bias.

  On the extended reals (rounding to bf16 on the way into a product is the identity there) entry (r, j) of the
  kernel's result is `bias[j] + Σ_{s < 8} Σ_{k < 512} x[r, 512·s + k] · weight[512·s + k, j]` and of the reference's
  `Σ_{k < 4096} x[r, k] · weight[k, j] + bias[j]`. The eight blocks of 512 consecutive places are the 4096 places,
  and a finite sum may be re-bracketed and re-ordered in any additive commutative monoid, so both are
  `Cert.LinearSpec.linear x weight bias` at every entry — at infinite entries too: no cancellation and no
  distributivity is used, and the finiteness of the inputs is never opened.

  Proof/Payloads.lean reads the kernel body's two stored values at an entry, Proof/Blocks.lean says which entries
  of the arguments a grid point's blocks hold, Proof/KernelValue.lean unrolls a row block's eight steps and joins
  the blocks of the sum (Proof/LibBlockedSum.lean), Proof/ReferenceValue.lean reads the reference's last stage.
  Nothing in the kernel is rewritten on the way to its idealized form, so the preservation conjunct is `True`.
-/
import proofs.«135480_j11424613007510_2_alg».proof.Defs
import proofs.«135480_j11424613007510_2_alg».proof.Proof.Gen.Kernel.Frame
import proofs.«135480_j11424613007510_2_alg».proof.Proof.Gen.KernelIdeal.Value
import proofs.«135480_j11424613007510_2_alg».proof.Proof.Gen.Pre_finite_inputs
import proofs.«135480_j11424613007510_2_alg».proof.Proof.Gen.ReferenceIdeal.Run
import proofs.«135480_j11424613007510_2_alg».proof.Proof.KernelValue
import proofs.«135480_j11424613007510_2_alg».proof.Proof.ReferenceValue
import Idealize.ShloMosaic.Adequacy
import Idealize.ShloMosaic.Init

noncomputable section

namespace Cert.Proof

open Idealize.ShloMosaic Idealize.SL.Sem

/-- The idealized kernel terminates without a fault and leaves its arguments as they were: its value run, with the
    result's equation dropped. -/
theorem frame_KernelIdeal : frame_KernelIdeal := fun m ρ _ =>
  (θ_run Cert.KernelIdeal.defs _ _).mono (fun _ h c => (h c).2) (Cert.KernelIdeal.Value.run (F := Ideal) m ρ)

/-- The idealized reference likewise. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on `x`, `weight` and `bias`, the kernel's result array and the reference's are both
    `linear x weight bias`, entry by entry, on the extended reals. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact ((Cert.ReferenceIdeal.Read.val_main_v3_eq _ _ _).trans (Cert.ReferenceIdeal.Whole.result_eq _ _ _)).trans
    (Cert.KernelIdeal.Whole.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
